-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x17x2x2048 : Shape := ⟨4, ![256, 17, 2, 2048]⟩
abbrev S_ : Shape := ⟨0, ![]⟩

class Facts : Prop where
  bcast_S_S256x17x2x2048 : S_.BroadcastsInDim S256x17x2x2048 (![] : Fin 0 → Fin S256x17x2x2048.rank)
  reducesTo_S256x17x2x2048_S_d0_1_2_3 : S256x17x2x2048.ReducesTo [0, 1, 2, 3] S_
  h_S_ : 0 < S_.numel

variable [Facts]

def fn {F : FTy → Type} [FloatOps F] (main_arg0 : FVec F S256x17x2x2048 .f32) (main_arg1 : FVec F S256x17x2x2048 .f32) : IVec S_ 1 :=
  let main_v0 : FVec F S256x17x2x2048 .f32 := Host.absf main_arg0
  let main_cst : FVec F S_ .f32 := constant S_ .f32 0x7F800000#32
  let main_v1 : FVec F S256x17x2x2048 .f32 := broadcastInDim S256x17x2x2048 ![] bcast_S_S256x17x2x2048 main_cst
  let main_v2 : IVec S256x17x2x2048 1 := cmpf .olt main_v0 main_v1
  let main_c : IVec S_ 1 := constantI S_ 1 1#1
  let main_v3 : IVec S_ 1 := (fun x v => Host.reduce IntOp.andi x v reducesTo_S256x17x2x2048_S_d0_1_2_3 h_S_) main_v2 main_c
  let main_v4 : FVec F S256x17x2x2048 .f32 := Host.absf main_arg1
  let main_cst_0 : FVec F S_ .f32 := constant S_ .f32 0x7F800000#32
  let main_v5 : FVec F S256x17x2x2048 .f32 := broadcastInDim S256x17x2x2048 ![] bcast_S_S256x17x2x2048 main_cst_0
  let main_v6 : IVec S256x17x2x2048 1 := cmpf .olt main_v4 main_v5
  let main_c_1 : IVec S_ 1 := constantI S_ 1 1#1
  let main_v7 : IVec S_ 1 := (fun x v => Host.reduce IntOp.andi x v reducesTo_S256x17x2x2048_S_d0_1_2_3 h_S_) main_v6 main_c_1
  let main_v8 : IVec S_ 1 := andi main_v3 main_v7
  main_v8
-- ==== Kernel.lean ====
abbrev S256x17x2x2048 : Shape := ⟨4, ![256, 17, 2, 2048]⟩
abbrev S16x17x2 : Shape := ⟨3, ![16, 17, 2]⟩
abbrev S16x17x2x2048 : Shape := ⟨4, ![16, 17, 2, 2048]⟩
abbrev S1x17x2 : Shape := ⟨3, ![1, 17, 2]⟩
abbrev S16x17x2x1 : Shape := ⟨4, ![16, 17, 2, 1]⟩
abbrev S17x2 : Shape := ⟨2, ![17, 2]⟩
abbrev S_ : Shape := ⟨0, ![]⟩
abbrev S17 : Shape := ⟨1, ![17]⟩

abbrev nBuf : Space → Nat
  | .hbm => 12
  | .vmem => 6
  | .smem => 0
  | _ => 0

abbrev bufTy : (tb : Table) → Fin (tcTables nBuf tb) → BufTy
  | .hbm, ⟨0, _⟩ => ⟨S256x17x2x2048, .f32⟩
  | .hbm, ⟨1, _⟩ => ⟨S256x17x2x2048, .f32⟩
  | .hbm, ⟨2, _⟩ => ⟨S16x17x2, .f32⟩
  | .hbm, ⟨3, _⟩ => ⟨S_, .f32⟩
  | .hbm, ⟨4, _⟩ => ⟨S17x2, .f32⟩
  | .hbm, ⟨5, _⟩ => ⟨S_, .f32⟩
  | .hbm, ⟨6, _⟩ => ⟨S17x2, .f32⟩
  | .hbm, ⟨7, _⟩ => ⟨S17x2, .f32⟩
  | .hbm, ⟨8, _⟩ => ⟨S_, .f32⟩
  | .hbm, ⟨9, _⟩ => ⟨S17, .f32⟩
  | .hbm, ⟨10, _⟩ => ⟨S_, .f32⟩
  | .hbm, ⟨11, _⟩ => ⟨S_, .f32⟩
  | .local _ .vmem, ⟨0, _⟩ => ⟨S16x17x2x2048, .f32⟩
  | .local _ .vmem, ⟨1, _⟩ => ⟨S16x17x2x2048, .f32⟩
  | .local _ .vmem, ⟨2, _⟩ => ⟨S16x17x2x2048, .f32⟩
  | .local _ .vmem, ⟨3, _⟩ => ⟨S16x17x2x2048, .f32⟩
  | .local _ .vmem, ⟨4, _⟩ => ⟨S1x17x2, .f32⟩
  | .local _ .vmem, ⟨5, _⟩ => ⟨S1x17x2, .f32⟩
  | _, _ => ⟨S256x17x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x17x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x17x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x17x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x17x2x2048_S16x17x2x2048_0_0_0_0 : ∀ a, (![0, 0, 0, 0] : Fin 4 → Nat) a + S16x17x2x2048.size a ≤ S16x17x2x2048.size a
  h_S16x17x2x2048 : 0 < S16x17x2x2048.numel
  reduces_S16x17x2x2048_S16x17x2 : S16x17x2x2048.Reduces [3] S16x17x2
  shapeCasts_S16x17x2_S16x17x2x1 : S16x17x2.ShapeCasts S16x17x2x1
  broadcasts_S16x17x2x1_S16x17x2x2048 : S16x17x2x1.Broadcasts S16x17x2x2048
  reduces_S16x17x2_S17x2 : S16x17x2.Reduces [0] S17x2
  shapeCasts_S17x2_S1x17x2 : S17x2.ShapeCasts S1x17x2
  inb_S1x17x2_S1x17x2_0_0_0 : ∀ a, (![0, 0, 0] : Fin 3 → Nat) a + S1x17x2.size a ≤ S1x17x2.size a
  h_S1x17x2 : 0 < S1x17x2.numel
  reducesTo_S16x17x2_S17x2_d0 : S16x17x2.ReducesTo [0] S17x2
  h_S_ : 0 < S_.numel
  bcast_S_S17x2 : S_.BroadcastsInDim S17x2 (![] : Fin 0 → Fin S17x2.rank)
  reducesTo_S17x2_S17_d1 : S17x2.ReducesTo [1] S17
  reducesTo_S17_S_d0 : S17.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x17x2x2048.size a ≤ S256x17x2x2048.size a
  hwx0_0 : ∀ i : grid0.Coords, EltTy.bits .f32 = 32 ∨ (Rect.block (s := S256x17x2x2048) S16x17x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x17x2x2048.size a ≤ S256x17x2x2048.size a
  hwx0_1 : ∀ i : grid0.Coords, EltTy.bits .f32 = 32 ∨ (Rect.block (s := S256x17x2x2048) S16x17x2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x17x2.size a ≤ S16x17x2.size a
  hwx0_2 : ∀ i : grid0.Coords, EltTy.bits .f32 = 32 ∨ (Rect.block (s := S16x17x2) S1x17x2.size (cc0_transform_2 i) (hinb0_2 i)).WholeWords (EltTy.packing .f32)

variable [Facts₀]

abbrev win0_0 : Pipeline.Window sig grid0 :=
  Pipeline.Window.ofSpec (Memref.whole main_arg0) S16x17x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x17x2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x17x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x17x2x2048 : Shape := ⟨4, ![256, 17, 2, 2048]⟩
abbrev S_ : Shape := ⟨0, ![]⟩
abbrev S256x17x2 : Shape := ⟨3, ![256, 17, 2]⟩
abbrev S256x17x2x1 : Shape := ⟨4, ![256, 17, 2, 1]⟩
abbrev S17x2 : Shape := ⟨2, ![17, 2]⟩
abbrev S17 : Shape := ⟨1, ![17]⟩

abbrev nBuf : Space → Nat
  | .hbm => 49
  | .vmem => 0
  | .smem => 0
  | _ => 0

abbrev bufTy : (tb : Table) → Fin (tcTables nBuf tb) → BufTy
  | .hbm, ⟨0, _⟩ => ⟨S256x17x2x2048, .f32⟩
  | .hbm, ⟨1, _⟩ => ⟨S256x17x2x2048, .f32⟩
  | .hbm, ⟨2, _⟩ => ⟨S_, .f32⟩
  | .hbm, ⟨3, _⟩ => ⟨S256x17x2, .f32⟩
  | .hbm, ⟨4, _⟩ => ⟨S_, .f32⟩
  | .hbm, ⟨5, _⟩ => ⟨S256x17x2, .f32⟩
  | .hbm, ⟨6, _⟩ => ⟨S256x17x2, .f32⟩
  | .hbm, ⟨7, _⟩ => ⟨S256x17x2x1, .f32⟩
  | .hbm, ⟨8, _⟩ => ⟨S256x17x2x2048, .f32⟩
  | .hbm, ⟨9, _⟩ => ⟨S256x17x2x2048, .f32⟩
  | .hbm, ⟨10, _⟩ => ⟨S256x17x2x2048, .f32⟩
  | .hbm, ⟨11, _⟩ => ⟨S_, .f32⟩
  | .hbm, ⟨12, _⟩ => ⟨S256x17x2, .f32⟩
  | .hbm, ⟨13, _⟩ => ⟨S256x17x2x1, .f32⟩
  | .hbm, ⟨14, _⟩ => ⟨S256x17x2x1, .f32⟩
  | .hbm, ⟨15, _⟩ => ⟨S256x17x2x2048, .f32⟩
  | .hbm, ⟨16, _⟩ => ⟨S256x17x2x2048, .f32⟩
  | .hbm, ⟨17, _⟩ => ⟨S_, .f32⟩
  | .hbm, ⟨18, _⟩ => ⟨S256x17x2, .f32⟩
  | .hbm, ⟨19, _⟩ => ⟨S_, .f32⟩
  | .hbm, ⟨20, _⟩ => ⟨S256x17x2, .f32⟩
  | .hbm, ⟨21, _⟩ => ⟨S256x17x2, .f32⟩
  | .hbm, ⟨22, _⟩ => ⟨S256x17x2x1, .f32⟩
  | .hbm, ⟨23, _⟩ => ⟨S256x17x2x2048, .f32⟩
  | .hbm, ⟨24, _⟩ => ⟨S256x17x2x2048, .f32⟩
  | .hbm, ⟨25, _⟩ => ⟨S256x17x2x2048, .f32⟩
  | .hbm, ⟨26, _⟩ => ⟨S_, .f32⟩
  | .hbm, ⟨27, _⟩ => ⟨S256x17x2, .f32⟩
  | .hbm, ⟨28, _⟩ => ⟨S256x17x2x1, .f32⟩
  | .hbm, ⟨29, _⟩ => ⟨S256x17x2x1, .f32⟩
  | .hbm, ⟨30, _⟩ => ⟨S256x17x2x2048, .f32⟩
  | .hbm, ⟨31, _⟩ => ⟨S256x17x2x2048, .f32⟩
  | .hbm, ⟨32, _⟩ => ⟨S256x17x2x2048, .f32⟩
  | .hbm, ⟨33, _⟩ => ⟨S256x17x2x2048, .f32⟩
  | .hbm, ⟨34, _⟩ => ⟨S256x17x2x2048, .f32⟩
  | .hbm, ⟨35, _⟩ => ⟨S_, .f32⟩
  | .hbm, ⟨36, _⟩ => ⟨S256x17x2, .f32⟩
  | .hbm, ⟨37, _⟩ => ⟨S_, .f32⟩
  | .hbm, ⟨38, _⟩ => ⟨S256x17x2, .f32⟩
  | .hbm, ⟨39, _⟩ => ⟨S256x17x2, .f32⟩
  | .hbm, ⟨40, _⟩ => ⟨S_, .f32⟩
  | .hbm, ⟨41, _⟩ => ⟨S17x2, .f32⟩
  | .hbm, ⟨42, _⟩ => ⟨S_, .f32⟩
  | .hbm, ⟨43, _⟩ => ⟨S17x2, .f32⟩
  | .hbm, ⟨44, _⟩ => ⟨S17x2, .f32⟩
  | .hbm, ⟨45, _⟩ => ⟨S_, .f32⟩
  | .hbm, ⟨46, _⟩ => ⟨S17, .f32⟩
  | .hbm, ⟨47, _⟩ => ⟨S_, .f32⟩
  | .hbm, ⟨48, _⟩ => ⟨S_, .f32⟩
  | _, _ => ⟨S256x17x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_cst_0 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_cst_2 : Ref sig .tc := ⟨.hbm, 42, rfl⟩
abbrev main_v9 : Ref sig .tc := ⟨.hbm, 43, rfl⟩
abbrev main_v10 : Ref sig .tc := ⟨.hbm, 44, rfl⟩
abbrev main_cst_3 : Ref sig .tc := ⟨.hbm, 45, rfl⟩
abbrev main_v11 : Ref sig .tc := ⟨.hbm, 46, rfl⟩
abbrev main_cst_4 : Ref sig .tc := ⟨.hbm, 47, rfl⟩
abbrev main_v12 : Ref sig .tc := ⟨.hbm, 48, rfl⟩

abbrev nD : Nat := 1
abbrev τ : Topo := Topo.v7x

variable {F : FTy → Type} [FloatOps F]

class Facts₀ : Prop where
  reducesTo_S256x17x2x2048_S256x17x2_d3 : S256x17x2x2048.ReducesTo [3] S256x17x2
  h_S_ : 0 < S_.numel
  bcast_S_S256x17x2 : S_.BroadcastsInDim S256x17x2 (![] : Fin 0 → Fin S256x17x2.rank)
  bcast_S256x17x2_S256x17x2x1_0_1_2 : S256x17x2.BroadcastsInDim S256x17x2x1 (![0, 1, 2] : Fin 3 → Fin S256x17x2x1.rank)
  bcast_S256x17x2x1_S256x17x2x2048_0_1_2_3 : S256x17x2x1.BroadcastsInDim S256x17x2x2048 (![0, 1, 2, 3] : Fin 4 → Fin S256x17x2x2048.rank)
  reducesTo_S256x17x2_S17x2_d0 : S256x17x2.ReducesTo [0] S17x2
  bcast_S_S17x2 : S_.BroadcastsInDim S17x2 (![] : Fin 0 → Fin S17x2.rank)
  reducesTo_S17x2_S17_d1 : S17x2.ReducesTo [1] S17
  reducesTo_S17_S_d0 : S17.ReducesTo [0] S_

variable [Facts₀]

class Facts : Prop extends Facts₀ where

variable [Facts]
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.LibSegmentScale.lean ====
/-
  Scaling a sum of extended reals by a non-negative real, and the guarded inverse square root of a count.

  On the extended reals multiplication does not distribute over addition in general (the sum of the two infinities is
  the junk value), but a NON-NEGATIVE REAL factor does distribute over any sum, whatever its terms. So a sum over a
  segment (the indices satisfying a predicate; the others contribute zero) whose every term carries a common non-negative
  real factor is that factor times the sum of the bare terms. The factor used against such sums is
  `1 / sqrt k` for a positive count `k` and `0` for `k = 0`: a non-negative real in every case, since a count of
  ones is a natural number.
-/
import Idealize.ShloMosaic.PureOps.Ideal

noncomputable section

open scoped BigOperators

namespace Cert.LibSegmentScale

open Idealize.ShloMosaic

/-- A non-negative real factor distributes over a finite sum of extended reals. -/
theorem sum_mul_coe {ι : Type*} (s : Finset ι) (u : ι → EReal) {d : ℝ} (hd : 0 ≤ d) :
    (∑ e ∈ s, u e) * (d : EReal) = ∑ e ∈ s, u e * (d : EReal) := by
  classical
  refine Finset.induction_on s ?_ ?_
  · simp only [Finset.sum_empty, zero_mul]
  · intro a t ha ih
    rw [Finset.sum_insert ha, Finset.sum_insert ha, ← ih]
    exact EReal.right_distrib_of_nonneg_of_ne_top (EReal.coe_nonneg.mpr hd) (EReal.coe_ne_top d) _ _

/-- THE SEGMENT LAW: if on the segment `p` every term `u e · g e` carries the same non-negative real factor
    `g e = d`, the segment's sum is `d` times the segment sum of the `u e`. -/
theorem segment_scale {E : ℕ} (p : Fin E → Prop) [DecidablePred p] (u g : Fin E → EReal) {d : ℝ} (hd : 0 ≤ d)
    (hg : ∀ e, p e → g e = (d : EReal)) :
    (∑ e, if p e then u e * g e else 0) = (∑ e, if p e then u e else 0) * (d : EReal) := by
  rw [sum_mul_coe _ _ hd]
  refine Finset.sum_congr rfl fun e _ => ?_
  by_cases h : p e
  · rw [if_pos h, if_pos h, hg e h]
  · rw [if_neg h, if_neg h, zero_mul]

/-- A sum of ones over a segment is a natural number. -/
theorem sum_indicator_one {ι : Type*} (s : Finset ι) (p : ι → Prop) [DecidablePred p] :
    ∃ k : ℕ, (∑ e ∈ s, if p e then (1 : EReal) else 0) = ((k : ℝ) : EReal) := by
  classical
  refine Finset.induction_on s ⟨0, by simp⟩ ?_
  intro a t ha ⟨k, hk⟩
  rw [Finset.sum_insert ha, hk]
  by_cases h : p a
  · refine ⟨k + 1, ?_⟩
    rw [if_pos h, ← EReal.coe_one, ← EReal.coe_add]
    congr 1
    push_cast
    ring
  · exact ⟨k, by rw [if_neg h, zero_add]⟩

/-- `1 / sqrt x` where `x` is positive (the square root taken of `x` where positive and of `1` elsewhere), and
    `0` where it is not. -/
def invSqrtPos (x : EReal) : EReal :=
  if 0 < x then Ideal.div 1 (Ideal.sqrt (if 0 < x then x else 1)) else 0

/-- On a natural number it is a non-negative real. -/
theorem invSqrtPos_natCast (k : ℕ) : ∃ r : ℝ, 0 ≤ r ∧ invSqrtPos ((k : ℝ) : EReal) = (r : EReal) := by
  unfold invSqrtPos
  by_cases hk : (0 : EReal) < ((k : ℝ) : EReal)
  · rw [if_pos hk, if_pos hk, Ideal.sqrt_coe]
    have hk' : (0 : ℝ) < (k : ℝ) := by exact_mod_cast hk
    rw [if_neg (not_lt.mpr hk'.le)]
    have hs : Real.sqrt (k : ℝ) ≠ 0 := (Real.sqrt_pos.mpr hk').ne'
    refine ⟨1 / Real.sqrt (k : ℝ), by positivity, ?_⟩
    rw [Ideal.div_coe hs, one_mul]
  · exact ⟨0, le_rfl, by rw [if_neg hk, EReal.coe_zero]⟩

end Cert.LibSegmentScale

end
-- ==== Proof.Spec.lean ====
/-
  The mathematics both programs compute, over the extended reals.

  For a row `x` of 2048 bins the row maximum is taken as a fold of `max` from −∞ (and once more against −∞), the row is
  shifted by it, and the log-softmax is the shifted row minus the logarithm of the sum of the shifted row's exponentials.
  For a pair of rows (scores `o`, labels `t`) the Kullback–Leibler row sum is
      Σ_k exp (lsm t k) · (lsm t k − lsm o k).
  The arrays are [256, 17, 2, 2048]: batch, joint, dimension, bin. For a joint `j` and dimension `d`
    * one program divides each batch row's sum by 2048, sums the 256 quotients and divides by 256;
    * the other sums the batch rows in 16 chunks of 16, sums the 16 chunk sums and divides once by 524288 = 2048 · 256.
  Division by a positive real is multiplication by its inverse, a non-negative real factor distributes over any finite sum
  of extended reals (whatever infinities it holds), and the 16 × 16 double sum is the sum over the 256 rows: the two
  entries are equal for all arrays, with no finiteness assumption.
-/
import Idealize.ShloMosaic.PureOps.Ideal
import Idealize.ShloMosaic.PureOps.Ideal.Laws
import Idealize.ShloMosaic.Lib.ValueIdx
import proofs.«179245_j88776974008376_1_alg».proof.Proof.LibSegmentScale

noncomputable section

open scoped BigOperators

namespace Cert.KLSpec

open Idealize.ShloMosaic Idealize.ShloMosaic.ValueIdx

/-- The float32 pattern of −∞ as an extended real. -/
abbrev negInf : EReal := Ideal.ofBits .f32 0xFF800000#32

/-- The float32 pattern of zero as an extended real. -/
abbrev zeroLit : EReal := Ideal.ofBits .f32 0x00000000#32

/-- A row's maximum: the fold of `max` from −∞ over the bins, then once more against −∞. -/
def rowMax (x : Fin 2048 → EReal) : EReal :=
  max negInf ((Finset.univ : Finset (Fin 2048)).fold max negInf x)

/-- The row shifted by its maximum. -/
def shifted (x : Fin 2048 → EReal) (k : Fin 2048) : EReal := x k - rowMax x

/-- The log-softmax of a row: the shifted row minus the logarithm of the sum of its exponentials. -/
def lsm (x : Fin 2048 → EReal) (k : Fin 2048) : EReal :=
  shifted x k - Ideal.log (∑ k' : Fin 2048, Ideal.exp (shifted x k'))

/-- The Kullback–Leibler sum of a row of scores `o` against a row of labels `t`. -/
def klRow (o t : Fin 2048 → EReal) : EReal :=
  ∑ k : Fin 2048, Ideal.exp (lsm t k) * (lsm t k - lsm o k)

/-- An array of shape [256, 17, 2, 2048]. -/
abbrev Arr4 := (⟨4, ![256, 17, 2, 2048]⟩ : Shape).Idx → EReal

/-- Row (b, j, d) of an array. -/
def row (x : Arr4) (b : Fin 256) (j : Fin 17) (d : Fin 2) : Fin 2048 → EReal := fun k => x (ix4 b j d k)

/-- The Kullback–Leibler sum at batch row `b`, joint `j`, dimension `d`. -/
def kl (o t : Arr4) (b : Fin 256) (j : Fin 17) (d : Fin 2) : EReal := klRow (row o b j d) (row t b j d)

/-- Mean over bins, then mean over the batch: each row sum over 2048, the 256 quotients summed, over 256. -/
def meanOfMeans (o t : Arr4) (j : Fin 17) (d : Fin 2) : EReal :=
  Ideal.div (zeroLit + ∑ b : Fin 256, Ideal.div (zeroLit + kl o t b j d) (Ideal.ofBits .f32 0x45000000#32))
    (Ideal.ofBits .f32 0x43800000#32)

/-- Batch row `r` of chunk `c`: row 16 c + r. -/
def chunkRow (c r : Fin 16) : Fin 256 := ⟨16 * c.val + r.val, by omega⟩

/-- The sum of chunk `c`'s sixteen row sums. -/
def chunkSum (o t : Arr4) (c : Fin 16) (j : Fin 17) (d : Fin 2) : EReal :=
  ∑ r : Fin 16, kl o t (chunkRow c r) j d

/-- The sixteen chunk sums summed, over 524288. -/
def totalOverCount (o t : Arr4) (j : Fin 17) (d : Fin 2) : EReal :=
  Ideal.div (zeroLit + ∑ c : Fin 16, chunkSum o t c j d) (Ideal.ofBits .f32 0x49000000#32)

/-- The three counts the programs divide by, as real numbers. -/
theorem lit_2048 : Ideal.ofBits .f32 0x45000000#32 = ((2048 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_524288 : Ideal.ofBits .f32 0x49000000#32 = ((524288 : ℝ) : EReal) := by
  simp [Ideal.ofBits, Ideal.ieee, -EReal.coe_mul]; norm_num

/-- Sixteen chunks of sixteen rows are the 256 rows. -/
theorem sum_chunks (f : Fin 256 → EReal) :
    ∑ c : Fin 16, ∑ r : Fin 16, f (chunkRow c r) = ∑ b : Fin 256, f b := by
  rw [← Fintype.sum_prod_type' (f := fun c r => f (chunkRow c r))]
  exact Fintype.sum_equiv (finProdFinEquiv (m := 16) (n := 16)) _ _
    (fun x => congrArg f (Fin.ext (by simp only [chunkRow, finProdFinEquiv, Equiv.coe_fn_mk]; omega)))

/-- THE LAW: the total over 2048 · 256 is the mean over the batch of the means over the bins. -/
theorem totalOverCount_eq_meanOfMeans (o t : Arr4) (j : Fin 17) (d : Fin 2) :
    totalOverCount o t j d = meanOfMeans o t j d := by
  unfold totalOverCount meanOfMeans chunkSum
  rw [lit_2048, lit_256, lit_524288]
  simp only [Ideal.ofBits_zero_f32, zero_add]
  rw [sum_chunks (fun b => kl o t b j d)]
  rw [Ideal.div_coe (by norm_num : (524288 : ℝ) ≠ 0), Ideal.div_coe (by norm_num : (256 : ℝ) ≠ 0)]
  simp only [Ideal.div_coe (by norm_num : (2048 : ℝ) ≠ 0)]
  rw [Cert.LibSegmentScale.sum_mul_coe _ _ (by norm_num : (0 : ℝ) ≤ 1 / 524288),
    Cert.LibSegmentScale.sum_mul_coe _ _ (by norm_num : (0 : ℝ) ≤ 1 / 256)]
  refine Finset.sum_congr rfl fun b _ => ?_
  rw [mul_assoc, ← EReal.coe_mul]
  norm_num

end Cert.KLSpec

end
-- ==== Proof.ReferenceValue.lean ====
/-
  The reference program read at an index.

  The reference takes the log-softmax of the scores and of the labels along the 2048 bins (row maximum, shifted row, minus
  the logarithm of the sum of exponentials), forms exp (lsm t) · (lsm t − lsm o) entry by entry, sums each row over the
  bins from the zero literal, divides by the 2048 literal, sums over the 256 batch rows from the zero literal and divides
  by the 256 literal. Every per-row quantity depends on that row only, so each stage read at (b, j, d) or (b, j, d, k) is the
  specification's function of row (b, j, d) of its argument, and entry (j, d) of the [17, 2] intermediate is the mean over
  the batch of the means over the bins.
-/
import proofs.«179245_j88776974008376_1_alg».proof.Proof.ReferenceReadPatched
import proofs.«179245_j88776974008376_1_alg».proof.Proof.Spec
import Idealize.ShloMosaic.Lib.ValueIdx
import Idealize.ShloMosaic.PureOps.Ideal.Laws
noncomputable section
namespace Cert.ReferenceIdeal.RefValue
open Cert.ReferenceIdeal Cert.ReferenceIdeal.Gen Cert.ReferenceIdeal.Read Idealize.ShloMosaic Idealize.ShloMosaic.ValueIdx

/-- An array of shape [256, 17, 2, 2048] of extended reals. -/
abbrev A4 := (⟨S256x17x2x2048, .f32⟩ : BufTy).Contents (Elt Ideal)

/-- The reduced index (b, j, d) with bin `k` put back is (b, j, d, k). -/
theorem lift_ix3 (h : S256x17x2x2048.Reduces [3] S256x17x2) (b : Fin 256) (j : Fin 17) (d : Fin 2)
    (k : Fin (S256x17x2x2048.size 3)) :
    h.lift (ix3 b j d) k = ix4 b j d (⟨k.val, k.isLt⟩ : Fin 2048) := by
  funext c; apply Fin.ext
  fin_cases c <;> rfl

/-! ### The log-softmax of argument 0: indices -/

theorem idx_c0_v4 (b : Fin 256) (j : Fin 17) (d : Fin 2) (k : Fin 2048) :
    idx_main_call0_v4 (ix4 b j d k) = ix4 b j d (⟨0, Nat.one_pos⟩ : Fin 1) :=
  funext fun a => Fin.ext (by match a with | ⟨0, _⟩ => rfl | ⟨1, _⟩ => rfl | ⟨2, _⟩ => rfl | ⟨3, _⟩ => rfl)
theorem idx_c0_v3 (b : Fin 256) (j : Fin 17) (d : Fin 2) (z : Fin 1) :
    idx_main_call0_v3 (ix4 b j d z) = ix3 b j d :=
  funext fun a => Fin.ext (by match a with | ⟨0, _⟩ => rfl | ⟨1, _⟩ => rfl | ⟨2, _⟩ => rfl)
theorem idx_c0_v7 (b : Fin 256) (j : Fin 17) (d : Fin 2) (k : Fin 2048) :
    idx_main_call0_v7 (ix3 b j d) k = ix4 b j d k :=
  funext fun a => Fin.ext (by match a with | ⟨0, _⟩ => rfl | ⟨1, _⟩ => rfl | ⟨2, _⟩ => rfl | ⟨3, _⟩ => rfl)
theorem idx_c0_v8 (b : Fin 256) (j : Fin 17) (d : Fin 2) (z : Fin 1) :
    idx_main_call0_v8 (ix4 b j d z) = ix3 b j d :=
  funext fun a => Fin.ext (by match a with | ⟨0, _⟩ => rfl | ⟨1, _⟩ => rfl | ⟨2, _⟩ => rfl)
theorem idx_c0_v10 (b : Fin 256) (j : Fin 17) (d : Fin 2) (k : Fin 2048) :
    idx_main_call0_v10 (ix4 b j d k) = ix4 b j d (⟨0, Nat.one_pos⟩ : Fin 1) :=
  funext fun a => Fin.ext (by match a with | ⟨0, _⟩ => rfl | ⟨1, _⟩ => rfl | ⟨2, _⟩ => rfl | ⟨3, _⟩ => rfl)

/-- The maximum over the bins, from −∞, of row (b, j, d). -/
theorem c0_v0_at (x : A4) (b : Fin 256) (j : Fin 17) (d : Fin 2) :
    val_main_call0_v0 (F := Ideal) x (ix3 b j d)
      = (Finset.univ : Finset (Fin 2048)).fold max Cert.KLSpec.negInf (Cert.KLSpec.row x b j d) := by
  unfold val_main_call0_v0
  have h : S256x17x2x2048.Reduces [3] S256x17x2 := by decide
  refine (Host.reduce_eq_fold_single (FloatOps.maximumf (F := Ideal) (φ := .f32)) x _
    reducesTo_S256x17x2x2048_S256x17x2_d3 h h_S_ (ix3 b j d)).trans ?_
  have hf : (x ∘ h.lift (ix3 b j d)) = Cert.KLSpec.row x b j d :=
    funext fun k => congrArg x (lift_ix3 h b j d k)
  exact congrArg (fun f => Finset.fold max Cert.KLSpec.negInf f (Finset.univ : Finset (Fin 2048))) hf

/-- The row maximum, taken once more against −∞. -/
theorem c0_v2_at (x : A4) (b : Fin 256) (j : Fin 17) (d : Fin 2) :
    val_main_call0_v2 (F := Ideal) x (ix3 b j d) = Cert.KLSpec.rowMax (Cert.KLSpec.row x b j d) := by
  rw [val_main_call0_v2_apply, val_main_call0_v1_apply, val_main_call0_cst_0_apply, c0_v0_at]
  rfl

/-- The row shifted by its maximum. -/
theorem c0_v5_at (x : A4) (b : Fin 256) (j : Fin 17) (d : Fin 2) (k : Fin 2048) :
    val_main_call0_v5 (F := Ideal) x (ix4 b j d k) = Cert.KLSpec.shifted (Cert.KLSpec.row x b j d) k := by
  rw [val_main_call0_v5_apply, val_main_call0_v4_apply, idx_c0_v4, val_main_call0_v3_apply, idx_c0_v3,
    c0_v2_at]
  rfl

/-- The sum over the bins of the shifted row's exponentials (the leading zero literal removed). -/
theorem c0_v7_at (x : A4) (b : Fin 256) (j : Fin 17) (d : Fin 2) :
    val_main_call0_v7 (F := Ideal) x (ix3 b j d)
      = ∑ k : Fin 2048, Ideal.exp (Cert.KLSpec.shifted (Cert.KLSpec.row x b j d) k) := by
  rw [val_main_call0_v7_apply, val_main_call0_cst_1_apply, Ideal.ofBits_def, Ideal.ofBits_zero_f32, zero_add]
  refine Finset.sum_congr rfl fun k _ => ?_
  rw [idx_c0_v7, val_main_call0_v6_apply, c0_v5_at, Ideal.hostUnary_exp_def]

/-- The log-softmax of row (b, j, d) at bin k. -/
theorem c0_lsm_at (x : A4) (b : Fin 256) (j : Fin 17) (d : Fin 2) (k : Fin 2048) :
    val_main_v0 (F := Ideal) x (ix4 b j d k) = Cert.KLSpec.lsm (Cert.KLSpec.row x b j d) k := by
  rw [val_main_v0_apply, c0_v5_at, val_main_call0_v10_apply, idx_c0_v10, val_main_call0_v9_apply,
    val_main_call0_v8_apply, idx_c0_v8, c0_v7_at, Ideal.hostUnary_log_def, Ideal.subf_def]
  rfl

/-! ### The log-softmax of argument 1: indices -/

theorem idx_c1_v4 (b : Fin 256) (j : Fin 17) (d : Fin 2) (k : Fin 2048) :
    idx_main_call1_v4 (ix4 b j d k) = ix4 b j d (⟨0, Nat.one_pos⟩ : Fin 1) :=
  funext fun a => Fin.ext (by match a with | ⟨0, _⟩ => rfl | ⟨1, _⟩ => rfl | ⟨2, _⟩ => rfl | ⟨3, _⟩ => rfl)
theorem idx_c1_v3 (b : Fin 256) (j : Fin 17) (d : Fin 2) (z : Fin 1) :
    idx_main_call1_v3 (ix4 b j d z) = ix3 b j d :=
  funext fun a => Fin.ext (by match a with | ⟨0, _⟩ => rfl | ⟨1, _⟩ => rfl | ⟨2, _⟩ => rfl)
theorem idx_c1_v7 (b : Fin 256) (j : Fin 17) (d : Fin 2) (k : Fin 2048) :
    idx_main_call1_v7 (ix3 b j d) k = ix4 b j d k :=
  funext fun a => Fin.ext (by match a with | ⟨0, _⟩ => rfl | ⟨1, _⟩ => rfl | ⟨2, _⟩ => rfl | ⟨3, _⟩ => rfl)
theorem idx_c1_v8 (b : Fin 256) (j : Fin 17) (d : Fin 2) (z : Fin 1) :
    idx_main_call1_v8 (ix4 b j d z) = ix3 b j d :=
  funext fun a => Fin.ext (by match a with | ⟨0, _⟩ => rfl | ⟨1, _⟩ => rfl | ⟨2, _⟩ => rfl)
theorem idx_c1_v10 (b : Fin 256) (j : Fin 17) (d : Fin 2) (k : Fin 2048) :
    idx_main_call1_v10 (ix4 b j d k) = ix4 b j d (⟨0, Nat.one_pos⟩ : Fin 1) :=
  funext fun a => Fin.ext (by match a with | ⟨0, _⟩ => rfl | ⟨1, _⟩ => rfl | ⟨2, _⟩ => rfl | ⟨3, _⟩ => rfl)

/-- The maximum over the bins, from −∞, of row (b, j, d). -/
theorem c1_v0_at (x : A4) (b : Fin 256) (j : Fin 17) (d : Fin 2) :
    val_main_call1_v0 (F := Ideal) x (ix3 b j d)
      = (Finset.univ : Finset (Fin 2048)).fold max Cert.KLSpec.negInf (Cert.KLSpec.row x b j d) := by
  unfold val_main_call1_v0
  have h : S256x17x2x2048.Reduces [3] S256x17x2 := by decide
  refine (Host.reduce_eq_fold_single (FloatOps.maximumf (F := Ideal) (φ := .f32)) x _
    reducesTo_S256x17x2x2048_S256x17x2_d3 h h_S_ (ix3 b j d)).trans ?_
  have hf : (x ∘ h.lift (ix3 b j d)) = Cert.KLSpec.row x b j d :=
    funext fun k => congrArg x (lift_ix3 h b j d k)
  exact congrArg (fun f => Finset.fold max Cert.KLSpec.negInf f (Finset.univ : Finset (Fin 2048))) hf

/-- The row maximum, taken once more against −∞. -/
theorem c1_v2_at (x : A4) (b : Fin 256) (j : Fin 17) (d : Fin 2) :
    val_main_call1_v2 (F := Ideal) x (ix3 b j d) = Cert.KLSpec.rowMax (Cert.KLSpec.row x b j d) := by
  rw [val_main_call1_v2_apply, val_main_call1_v1_apply, val_main_call1_cst_0_apply, c1_v0_at]
  rfl

/-- The row shifted by its maximum. -/
theorem c1_v5_at (x : A4) (b : Fin 256) (j : Fin 17) (d : Fin 2) (k : Fin 2048) :
    val_main_call1_v5 (F := Ideal) x (ix4 b j d k) = Cert.KLSpec.shifted (Cert.KLSpec.row x b j d) k := by
  rw [val_main_call1_v5_apply, val_main_call1_v4_apply, idx_c1_v4, val_main_call1_v3_apply, idx_c1_v3,
    c1_v2_at]
  rfl

/-- The sum over the bins of the shifted row's exponentials (the leading zero literal removed). -/
theorem c1_v7_at (x : A4) (b : Fin 256) (j : Fin 17) (d : Fin 2) :
    val_main_call1_v7 (F := Ideal) x (ix3 b j d)
      = ∑ k : Fin 2048, Ideal.exp (Cert.KLSpec.shifted (Cert.KLSpec.row x b j d) k) := by
  rw [val_main_call1_v7_apply, val_main_call1_cst_1_apply, Ideal.ofBits_def, Ideal.ofBits_zero_f32, zero_add]
  refine Finset.sum_congr rfl fun k _ => ?_
  rw [idx_c1_v7, val_main_call1_v6_apply, c1_v5_at, Ideal.hostUnary_exp_def]

/-- The log-softmax of row (b, j, d) at bin k. -/
theorem c1_lsm_at (x : A4) (b : Fin 256) (j : Fin 17) (d : Fin 2) (k : Fin 2048) :
    val_main_v1 (F := Ideal) x (ix4 b j d k) = Cert.KLSpec.lsm (Cert.KLSpec.row x b j d) k := by
  rw [val_main_v1_apply, c1_v5_at, val_main_call1_v10_apply, idx_c1_v10, val_main_call1_v9_apply,
    val_main_call1_v8_apply, idx_c1_v8, c1_v7_at, Ideal.hostUnary_log_def, Ideal.subf_def]
  rfl

/-! ### The Kullback–Leibler sums and their two means -/

theorem idx_v5 (b : Fin 256) (j : Fin 17) (d : Fin 2) (k : Fin 2048) :
    idx_main_v5 (ix3 b j d) k = ix4 b j d k :=
  funext fun a => Fin.ext (by match a with | ⟨0, _⟩ => rfl | ⟨1, _⟩ => rfl | ⟨2, _⟩ => rfl | ⟨3, _⟩ => rfl)
theorem idx_v8 (j : Fin 17) (d : Fin 2) (b : Fin 256) :
    idx_main_v8 (ix2 j d) b = ix3 b j d :=
  funext fun a => Fin.ext (by match a with | ⟨0, _⟩ => rfl | ⟨1, _⟩ => rfl | ⟨2, _⟩ => rfl)

/-- The sum over the bins, from the zero literal, of exp (lsm t) · (lsm t − lsm o) on row (b, j, d). -/
theorem v5_at (x0 x1 : A4) (b : Fin 256) (j : Fin 17) (d : Fin 2) :
    val_main_v5 (F := Ideal) x0 x1 (ix3 b j d) = Cert.KLSpec.zeroLit + Cert.KLSpec.kl x0 x1 b j d := by
  rw [val_main_v5_apply, val_main_cst_apply, Ideal.ofBits_def]
  unfold Cert.KLSpec.kl Cert.KLSpec.klRow
  refine congrArg (Cert.KLSpec.zeroLit + ·) (Finset.sum_congr rfl fun k _ => ?_)
  rw [idx_v5, val_main_v4_apply, val_main_v2_apply, val_main_v3_apply, c1_lsm_at, c0_lsm_at, Ideal.mulf_def,
    Ideal.subf_def, Ideal.hostUnary_exp_def]

/-- Entry (j, d) of the reference's [17, 2] intermediate is the mean over the batch of the means over the bins of the
    Kullback–Leibler row sums: each row sum (from the zero literal) over the 2048 literal, the 256 quotients summed from
    the zero literal, over the 256 literal. -/
theorem entry (x0 x1 : (⟨S256x17x2x2048, .f32⟩ : BufTy).Contents (Elt Ideal)) (j : Fin 17) (d : Fin 2) :
    val_main_v10 (F := Ideal) x0 x1 (ix2 j d) = Cert.KLSpec.meanOfMeans x0 x1 j d := by
  rw [val_main_v10_apply, val_main_v9_apply, val_main_cst_2_apply, val_main_v8_apply, val_main_cst_1_apply,
    Ideal.hostDivf_def, Ideal.ofBits_def, Ideal.ofBits_def]
  unfold Cert.KLSpec.meanOfMeans
  refine congrArg (fun s => Ideal.div (Cert.KLSpec.zeroLit + s) (Ideal.ofBits .f32 0x43800000#32))
    (Finset.sum_congr rfl fun b _ => ?_)
  rw [idx_v8, val_main_v7_apply, val_main_v6_apply, val_main_cst_0_apply, v5_at, Ideal.hostDivf_def, Ideal.ofBits_def]

end Cert.ReferenceIdeal.RefValue
end
-- ==== Proof.LibKeepDims.lean ====
/-
  A reduction over the last axis kept as a unit axis, read at an index.

  A rank-3 array [a, b, c] cast to [a, b, c, 1] (the last axis a unit axis) holds at (i, j, k, 0) what the array holds at
  (i, j, k): the row-major position is unchanged, since the added axis has one coordinate. An [a, b, c, 1] array broadcast
  along its unit axis to [a, b, c, n] holds at (i, j, k, l) what the array holds at (i, j, k, 0), whatever l is. Together:
  a per-row quantity (a row maximum, a row sum) spread back over the row's n entries is that quantity at every entry.
-/
import Idealize.ShloMosaic.Lib.Pipeline.Value
import Idealize.ShloMosaic.Lib.ValueIdx

namespace Cert.LibKeepDims

open Idealize.ShloMosaic Idealize.ShloMosaic.ValueIdx

variable {α : Type}

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An [a, b, c, 1] array broadcast to [a, b, c, n] reads, at (i, j, k, l), the operand at (i, j, k, 0). -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

end Cert.LibKeepDims
-- ==== Proof.KernelPayload.lean ====
/-
  What one grid point of the kernel stores, read at an index.

  The body loads a block of 16 batch rows of the scores and of the labels, [16, 17, 2, 2048] each. Per row (r, j, d) it takes
  the row maximum, shifts the row, subtracts the logarithm of the sum of exponentials (the log-softmax), forms
  exp (lsm t) · (lsm t − lsm o) entry by entry, sums over the 2048 bins and then over the block's 16 rows, and stores the
  [17, 2] result as a [1, 17, 2] block. So the stored block at (0, j, d) is the sum over the block's 16 rows of the
  Kullback–Leibler row sums `klRow` of the block's rows: every per-row quantity depends on that row only.
-/
import proofs.«179245_j88776974008376_1_alg».proof.Proof.Gen.KernelIdeal.Skeleton
import proofs.«179245_j88776974008376_1_alg».proof.Proof.Spec
import proofs.«179245_j88776974008376_1_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.KLSpec Cert.LibKeepDims

/-- Row (r, j, d) of a block of 16 batch rows. -/
def brow (v : FVec Ideal S16x17x2x2048 .f32) (r : Fin 16) (j : Fin 17) (d : Fin 2) : Fin 2048 → EReal :=
  fun k => v (ix4 r j d k)

/-- The block's row maxima, each once more against −∞. -/
def bMax (v : FVec Ideal S16x17x2x2048 .f32) : FVec Ideal S16x17x2 .f32 :=
  maximumf (broadcast S16x17x2 (Scalar.ofBits .f32 0xFF800000#32))
    (multiReduction .maximumf [3] S16x17x2 v 0xFF800000#32 reduces_S16x17x2x2048_S16x17x2 (.inl rfl) rfl)

/-- The block with each row shifted by its maximum. -/
def bShift (v : FVec Ideal S16x17x2x2048 .f32) : FVec Ideal S16x17x2x2048 .f32 :=
  subf v (broadcastTo S16x17x2x2048 (shapeCast S16x17x2x1 (bMax v) shapeCasts_S16x17x2_S16x17x2x1) broadcasts_S16x17x2x1_S16x17x2x2048)

/-- The sums of the shifted rows' exponentials. -/
def bExpSum (v : FVec Ideal S16x17x2x2048 .f32) : FVec Ideal S16x17x2 .f32 :=
  multiReduction .add [3] S16x17x2 (exp (bShift v)) 0x00000000#32 reduces_S16x17x2x2048_S16x17x2 (.inl rfl) rfl

/-- The block's log-softmax along the bins. -/
def bLsm (v : FVec Ideal S16x17x2x2048 .f32) : FVec Ideal S16x17x2x2048 .f32 :=
  subf (bShift v) (broadcastTo S16x17x2x2048 (log (shapeCast S16x17x2x1 (bExpSum v) shapeCasts_S16x17x2_S16x17x2x1)) broadcasts_S16x17x2x1_S16x17x2x2048)

/-- The Kullback–Leibler terms, entry by entry. -/
def bKl (v0 v1 : FVec Ideal S16x17x2x2048 .f32) : FVec Ideal S16x17x2x2048 .f32 :=
  mulf (exp (bLsm v1)) (subf (bLsm v1) (bLsm v0))

/-- Their sums over the bins. -/
def bRowSum (v0 v1 : FVec Ideal S16x17x2x2048 .f32) : FVec Ideal S16x17x2 .f32 :=
  multiReduction .add [3] S16x17x2 (bKl v0 v1) 0x00000000#32 reduces_S16x17x2x2048_S16x17x2 (.inl rfl) rfl

/-- The stored block is these operations composed. -/
theorem pay_eq (v0 v1 : Vec Ideal S16x17x2x2048 .f32) :
    k0_pay1 (F := Ideal) v0 v1
      = shapeCast S1x17x2 (multiReduction .add [0] S17x2 (bRowSum v0 v1) 0x00000000#32 reduces_S16x17x2_S17x2 (.inl rfl) rfl) shapeCasts_S17x2_S1x17x2 := rfl

/-- A reduced index (r, j, d) with the bin k put back is (r, j, d, k). -/
theorem lift_bins (r : Fin 16) (j : Fin 17) (d : Fin 2) (k : Fin 2048) :
    reduces_S16x17x2x2048_S16x17x2.lift (ix3 r j d) k = ix4 r j d k := by
  funext c; apply Fin.ext
  fin_cases c <;> rfl

/-- A reduced index (j, d) with the block row r put back is (r, j, d). -/
theorem lift_rows (j : Fin 17) (d : Fin 2) (r : Fin 16) :
    reduces_S16x17x2_S17x2.lift (ix2 j d) r = ix3 r j d := by
  funext c; apply Fin.ext
  fin_cases c <;> rfl

/-- The block's row maximum is the row's maximum. -/
theorem bMax_apply (v : FVec Ideal S16x17x2x2048 .f32) (r : Fin 16) (j : Fin 17) (d : Fin 2) :
    bMax v (ix3 r j d) = rowMax (brow v r j d) := by
  unfold bMax rowMax
  rw [maximumf_apply]
  refine congrArg (max negInf) ?_
  refine (Ideal.multiReduction_maximumf_single v _ reduces_S16x17x2x2048_S16x17x2 _ _ (ix3 r j d)).trans ?_
  have hf : (v ∘ reduces_S16x17x2x2048_S16x17x2.lift (ix3 r j d)) = brow v r j d :=
    funext fun k => congrArg v (lift_bins r j d k)
  rw [hf]
  rfl

/-- The shifted block at (r, j, d, k) is the shifted row at k. -/
theorem bShift_apply (v : FVec Ideal S16x17x2x2048 .f32) (r : Fin 16) (j : Fin 17) (d : Fin 2) (k : Fin 2048) :
    bShift v (ix4 r j d k) = shifted (brow v r j d) k := by
  unfold bShift shifted
  rw [subf_apply, broadcastTo_abc1_abcn_apply, shapeCast_abc_abc1_apply, bMax_apply]
  rfl

/-- The block's sum of exponentials at (r, j, d) is the row's. -/
theorem bExpSum_apply (v : FVec Ideal S16x17x2x2048 .f32) (r : Fin 16) (j : Fin 17) (d : Fin 2) :
    bExpSum v (ix3 r j d) = ∑ k : Fin 2048, Ideal.exp (shifted (brow v r j d) k) := by
  unfold bExpSum
  refine (Ideal.multiReduction_add_single _ _ reduces_S16x17x2x2048_S16x17x2 _ _ (ix3 r j d)).trans ?_
  refine Finset.sum_congr rfl fun k _ => ?_
  exact (congrArg (fun i => Ideal.exp (bShift v i)) (lift_bins r j d k)).trans
    (congrArg Ideal.exp (bShift_apply v r j d k))

/-- The block's log-softmax at (r, j, d, k) is the row's log-softmax at k. -/
theorem bLsm_apply (v : FVec Ideal S16x17x2x2048 .f32) (r : Fin 16) (j : Fin 17) (d : Fin 2) (k : Fin 2048) :
    bLsm v (ix4 r j d k) = lsm (brow v r j d) k := by
  unfold bLsm lsm
  rw [subf_apply, broadcastTo_abc1_abcn_apply, bShift_apply]
  refine congrArg (shifted (brow v r j d) k - ·) ?_
  show Ideal.log (shapeCast S16x17x2x1 (bExpSum v) shapeCasts_S16x17x2_S16x17x2x1 (ix4 r j d (0 : Fin 1))) = _
  rw [shapeCast_abc_abc1_apply, bExpSum_apply]

/-- The Kullback–Leibler term at (r, j, d, k). -/
theorem bKl_apply (v0 v1 : FVec Ideal S16x17x2x2048 .f32) (r : Fin 16) (j : Fin 17) (d : Fin 2) (k : Fin 2048) :
    bKl v0 v1 (ix4 r j d k)
      = Ideal.exp (lsm (brow v1 r j d) k) * (lsm (brow v1 r j d) k - lsm (brow v0 r j d) k) := by
  unfold bKl
  rw [mulf_apply, subf_apply, bLsm_apply, bLsm_apply]
  show Ideal.exp (bLsm v1 (ix4 r j d k)) * _ = _
  rw [bLsm_apply]

/-- The sum over the bins at (r, j, d) is the row's Kullback–Leibler sum. -/
theorem bRowSum_apply (v0 v1 : FVec Ideal S16x17x2x2048 .f32) (r : Fin 16) (j : Fin 17) (d : Fin 2) :
    bRowSum v0 v1 (ix3 r j d) = klRow (brow v0 r j d) (brow v1 r j d) := by
  unfold bRowSum klRow
  refine (Ideal.multiReduction_add_single _ _ reduces_S16x17x2x2048_S16x17x2 _ _ (ix3 r j d)).trans ?_
  refine Finset.sum_congr rfl fun k _ => ?_
  exact (congrArg (bKl v0 v1) (lift_bins r j d k)).trans (bKl_apply v0 v1 r j d k)

/-- THE STORED BLOCK at (0, j, d): the sum over the block's 16 rows of the rows' Kullback–Leibler sums. -/
theorem pay_apply (v0 v1 : Vec Ideal S16x17x2x2048 .f32) (u : Fin 1) (j : Fin 17) (d : Fin 2) :
    k0_pay1 (F := Ideal) v0 v1 (ix3 u j d) = ∑ r : Fin 16, klRow (brow v0 r j d) (brow v1 r j d) := by
  rw [pay_eq, shapeCast_ab_1ab_apply]
  refine (Ideal.multiReduction_add_single _ _ reduces_S16x17x2_S17x2 _ _ (ix2 j d)).trans ?_
  refine Finset.sum_congr rfl fun r _ => ?_
  exact (congrArg (bRowSum v0 v1) (lift_rows j d r)).trans (bRowSum_apply v0 v1 r j d)

end Cert.KernelIdeal.Payload

end
-- ==== Proof.KernelArray.lean ====
/-
  The kernel's [16, 17, 2] output array after the region.

  Grid point `t` (of 16) reads block `t` of the scores and of the labels — batch rows 16 t, …, 16 t + 15, every joint,
  dimension and bin — and writes back row `t` of the output, a [1, 17, 2] block. By the payload lemma that block at (0, j, d)
  is the sum of the Kullback–Leibler row sums of the 16 rows of chunk `t`. The 16 written blocks tile the output, so the
  output array ends holding, at (c, j, d), the chunk sum of chunk `c`.
-/
import proofs.«179245_j88776974008376_1_alg».proof.Proof.Gen.KernelIdeal.Frame
import proofs.«179245_j88776974008376_1_alg».proof.Proof.KernelPayload
import Idealize.ShloMosaic.Lib.Pipeline.Value
import Idealize.ShloMosaic.Lib.ValueIdx

set_option maxRecDepth 16384

noncomputable section

open scoped BigOperators

namespace Cert.KernelIdeal.ArrayValue

open Cert.KernelIdeal Cert.KernelIdeal.Gen Idealize.ShloMosaic Idealize.ShloMosaic.TcCoe Idealize.ShloMosaic.ValueIdx
open Idealize.SL.Sem Cert.KLSpec Cert.KernelIdeal.Payload
open Idealize.ShloMosaic.Pipeline (Dat)

variable (m : (ℓ : Loc nD τ sig) → Buf (Elt Ideal) ℓ)

/-- The chunk sums as a [16, 17, 2] array. -/
def G (o t : Arr4) : S16x17x2.Idx → EReal := fun i => chunkSum o t (i 0) (i 1) (i 2)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A grid point as a chunk number. -/
def pt (t : Fin cfg0.N) : Fin 16 := ⟨t.val, by have h := t.isLt; have hN : cfg0.N = 16 := N_0; omega⟩

/-- The printed index maps, decided over the grid: at point `t` each window's block index is (t, 0, …, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- Entry (r, j, d, k) of the scores block at point `t` is entry (16 t + r, j, d, k) of the scores array. -/
theorem iblk0_apply (c : Dev nD) (t : Fin cfg0.N) (r : Fin 16) (j : Fin 17) (d : Fin 2) (k : Fin 2048) :
    iblk m c 0 t (ix4 r j d k) = V m c main_arg0 (ix4 (chunkRow (pt t) r) j d k) := by
  show V m c main_arg0 (((cfg0.win 0).blk t).view.emb (ix4 r j d k)) = _
  refine congrArg (V m c main_arg0) ?_
  obtain ⟨e0, e1, e2, e3, -⟩ := idx_facts t
  funext a; apply Fin.ext
  match a with
  | ⟨0, _⟩ => show win0_0.index t (0 : Fin 4) * 16 + 1 * r.val = 16 * t.val + r.val; omega
  | ⟨1, _⟩ => show win0_0.index t (1 : Fin 4) * 17 + 1 * j.val = j.val; omega
  | ⟨2, _⟩ => show win0_0.index t (2 : Fin 4) * 2 + 1 * d.val = d.val; omega
  | ⟨3, _⟩ => show win0_0.index t (3 : Fin 4) * 2048 + 1 * k.val = k.val; omega

/-- The same for the labels block. -/
theorem iblk1_apply (c : Dev nD) (t : Fin cfg0.N) (r : Fin 16) (j : Fin 17) (d : Fin 2) (k : Fin 2048) :
    iblk m c 1 t (ix4 r j d k) = V m c main_arg1 (ix4 (chunkRow (pt t) r) j d k) := by
  show V m c main_arg1 (((cfg0.win 1).blk t).view.emb (ix4 r j d k)) = _
  refine congrArg (V m c main_arg1) ?_
  obtain ⟨-, -, -, -, e0, e1, e2, e3, -⟩ := idx_facts t
  funext a; apply Fin.ext
  match a with
  | ⟨0, _⟩ => show win0_1.index t (0 : Fin 4) * 16 + 1 * r.val = 16 * t.val + r.val; omega
  | ⟨1, _⟩ => show win0_1.index t (1 : Fin 4) * 17 + 1 * j.val = j.val; omega
  | ⟨2, _⟩ => show win0_1.index t (2 : Fin 4) * 2 + 1 * d.val = d.val; omega
  | ⟨3, _⟩ => show win0_1.index t (3 : Fin 4) * 2048 + 1 * k.val = k.val; omega

/-- Entry (u, j, d) of the output block at point `t` sits at (t, j, d) of the output array. -/
theorem emb_out (t : Fin cfg0.N) (u : Fin 1) (j : Fin 17) (d : Fin 2) :
    ((cfg0.win 2).blk t).view.emb (ix3 u j d) = ix3 (pt t) j d := by
  obtain ⟨-, -, -, -, -, -, -, -, f0, f1, f2⟩ := idx_facts t
  funext a; apply Fin.ext
  match a with
  | ⟨0, _⟩ => show win0_2.index t (0 : Fin 3) * 1 + 1 * u.val = t.val; omega
  | ⟨1, _⟩ => show win0_2.index t (1 : Fin 3) * 17 + 1 * j.val = j.val; omega
  | ⟨2, _⟩ => show win0_2.index t (2 : Fin 3) * 2 + 1 * d.val = d.val; omega

/-- WHAT POINT `t` WRITES BACK is block `t` of the chunk sums of the argument arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  rw [View.canon_unit_zero hz3]
  simp only [View.ld_unit_zero (S := S16x17x2x2048) hz4]
  funext y
  obtain ⟨u, j, d, rfl⟩ : ∃ (u : Fin 1) (j : Fin 17) (d : Fin 2), y = ix3 u j d := ⟨y 0, y 1, y 2, eq_ix3 y⟩
  show k0_pay1 (F := Ideal) (iblk m c 0 t) (iblk m c 1 t) (ix3 u j d)
    = G (V m c main_arg0) (V m c main_arg1) (((cfg0.win 2).blk t).view.emb (ix3 u j d))
  rw [emb_out t u j d]
  refine (pay_apply (iblk m c 0 t) (iblk m c 1 t) u j d).trans ?_
  show _ = chunkSum (V m c main_arg0) (V m c main_arg1) (pt t) j d
  unfold chunkSum kl
  refine Finset.sum_congr rfl fun r _ => ?_
  have h0 : brow (iblk m c 0 t) r j d = row (V m c main_arg0) (chunkRow (pt t) r) j d :=
    funext fun k => iblk0_apply m c t r j d k
  have h1 : brow (iblk m c 1 t) r j d = row (V m c main_arg1) (chunkRow (pt t) r) j d :=
    funext fun k => iblk1_apply m c t r j d k
  rw [h0, h1]

/-- An index of the output is in point `t`'s block iff each coordinate is in the block's range on its axis. -/
theorem mem_blk (t : Fin cfg0.N) (i : S16x17x2.Idx) :
    i ∈ ((cfg0.win 2).blk t).view.set ↔ ∀ a : Fin 3, win0_2.index t a * S1x17x2.size a ≤ (i a).val ∧ (i a).val < win0_2.index t a * S1x17x2.size a + S1x17x2.size a := by
  show i ∈ ((View.whole main_v0).slice (win0_2.rect t)).set ↔ _
  rw [View.set_slice_whole, Rect.mem_set_unit]
  exact Iff.rfl

/-- Every index (c, j, d) of the output is in the block point `c` writes back. -/
theorem cover (i : S16x17x2.Idx) :
    ∃ t : Fin cfg0.N, (cfg0.win 2).flush t = true ∧ i ∈ ((cfg0.win 2).blk t).view.set := by
  have hi0 : (i 0).val < 16 := (i 0).isLt
  have hi1 : (i 1).val < 17 := (i 1).isLt
  have hi2 : (i 2).val < 2 := (i 2).isLt
  have hN : cfg0.N = 16 := N_0
  obtain ⟨t, ht⟩ : ∃ t : Fin cfg0.N, t.val = (i 0).val := ⟨⟨(i 0).val, by omega⟩, rfl⟩
  refine ⟨t, flush0_2 t, ?_⟩
  rw [mem_blk]
  obtain ⟨-, -, -, -, -, -, -, -, f0, f1, f2⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 17 ≤ (i 1).val ∧ (i 1).val < win0_2.index t (1 : Fin 3) * 17 + 17; omega
  | ⟨2, _⟩ => show win0_2.index t (2 : Fin 3) * 2 ≤ (i 2).val ∧ (i 2).val < win0_2.index t (2 : Fin 3) * 2 + 2; omega

/-- THE OUTPUT ARRAY after the region: the chunk sums of the argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.KernelIdeal.ArrayValue

end
-- ==== Proof.KernelValue.lean ====
/-
  The kernel program's result: the host operations after the region, applied to the chunk sums.

  After the region the program sums the [16, 17, 2] chunk sums over the 16 chunks (from the zero literal), divides by
  524288, sums over the two dimensions and takes the minimum over the 17 joints. The region leaves the chunk sums of the
  argument arrays in its output array, every other buffer as it was, so the result buffer ends at those operations of the
  chunk sums; and the [17, 2] array before the last two operations is, entry by entry, the total over the count.
-/
import proofs.«179245_j88776974008376_1_alg».proof.Proof.Gen.KernelIdeal.Frame
import proofs.«179245_j88776974008376_1_alg».proof.Proof.KernelArray
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.KLSpec Cert.KernelIdeal.ArrayValue

/-- The [17, 2] array the host computes from the region's output: the sum over the chunks, over 524288. -/
def perJointDim (A : (⟨S16x17x2, .f32⟩ : BufTy).Contents (Elt Ideal)) : (⟨S17x2, .f32⟩ : BufTy).Contents (Elt Ideal) :=
  Host.divf (Host.reduceAdd A (constant (F := Ideal) S_ .f32 0x00000000#32) reducesTo_S16x17x2_S17x2_d0 h_S_)
    (broadcastInDim S17x2 ![] bcast_S_S17x2 (constant (F := Ideal) S_ .f32 0x49000000#32))

/-- The last two host operations: the sum over the two dimensions, then the minimum over the joints. -/
def lossOf (Y : (⟨S17x2, .f32⟩ : BufTy).Contents (Elt Ideal)) : (⟨S_, .f32⟩ : BufTy).Contents (Elt Ideal) :=
  Host.reduce (FloatOps.minimumf (F := Ideal) (φ := .f32))
    (Host.reduceAdd Y (constant (F := Ideal) S_ .f32 0x00000000#32) reducesTo_S17x2_S17_d1 h_S_)
    (constant (F := Ideal) S_ .f32 0x7F800000#32) reducesTo_S17_S_d0 h_S_

/-- The host's sum over the chunks at (j, d): the zero literal plus the sum of the 16 chunk entries. -/
theorem hostSum_apply (A : (⟨S16x17x2, .f32⟩ : BufTy).Contents (Elt Ideal)) (j : Fin 17) (d : Fin 2) :
    Host.reduceAdd A (constant (F := Ideal) S_ .f32 0x00000000#32) reducesTo_S16x17x2_S17x2_d0 h_S_ (ix2 j d)
      = zeroLit + ∑ c : Fin 16, A (ix3 c j d) := by
  simp only [Host.reduceAdd, Ideal.hostReduceAdd_def]
  rw [Ideal.hostReduceAdd_single reducesTo_S16x17x2_S17x2_d0 (by decide)]
  refine congrArg (_ + ·) (Finset.sum_congr rfl fun k _ => ?_)
  exact congrArg A (funext fun a => Fin.ext (by match a with | ⟨0, _⟩ => rfl | ⟨1, _⟩ => rfl | ⟨2, _⟩ => rfl))

/-- The [17, 2] array of the chunk sums, entry by entry: the total over the count. -/
theorem perJointDim_apply (o t : Arr4) (j : Fin 17) (d : Fin 2) :
    perJointDim (G o t) (ix2 j d) = totalOverCount o t j d := by
  unfold perJointDim totalOverCount
  show Ideal.div (Host.reduceAdd (G o t) (constant (F := Ideal) S_ .f32 0x00000000#32) reducesTo_S16x17x2_S17x2_d0 h_S_ (ix2 j d))
      (broadcastInDim S17x2 ![] bcast_S_S17x2 (constant (F := Ideal) S_ .f32 0x49000000#32) (ix2 j d)) = _
  rw [hostSum_apply, broadcastInDim_apply _ bcast_S_S17x2 (constant (F := Ideal) S_ .f32 0x49000000#32) (ix2 j d) (fun a => a.elim0) (fun a => a.elim0)]
  rfl

variable (m : (ℓ : Loc nD τ sig) → Buf (Elt Ideal) ℓ) (ρ : Dev nD → PrngReg)

/-- The result buffer after the host operations that follow the region. -/
theorem tail_value (c : Dev nD) :
    Pipeline.afterTail₀ cfgs (dats m) 0 (V0 m) [hostOps1] c main_v5
      = lossOf (perJointDim (G (m ((c.tc : Thread nD τ).loc main_arg0)) (m ((c.tc : Thread nD τ).loc main_arg1)))) := by
  have e : Pipeline.withArrays spec0 c (V0 m c) (fun w => (dats m 0 c).arrAt w cfg0.N) (Proc.devRef .tc main_v0)
      = G (m ((c.tc : Thread nD τ).loc main_arg0)) (m ((c.tc : Thread nD τ).loc main_arg1)) :=
    (Pipeline.withArrays_arr spec0 launch0.win.arr_inj c _ _ 2).trans (final m c)
  unfold Pipeline.afterTail₀
  show StableHlo.after hostOps1 _ (Proc.devRef .tc main_v5) = _
  after_results
  rw [e]
  rfl

/-- THE KERNEL PROGRAM'S RUN: every weakly fair execution terminates with the result at the loss of the chunk sums of the
    arguments, the arguments unchanged. -/
theorem run : θ_run defs (onTc (τ := τ) (main (F := Ideal))) ⟨m, fun _ => 0, ρ⟩ (fun r => ∀ c : Dev nD,
      r.2.mem ((c.tc : Thread nD τ).loc main_v5)
        = lossOf (perJointDim (G (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 rfl (fun w => by fin_cases w <;> decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.lean ====
/-
  The claim: the kernel program and the jnp reference compute the same loss at the ideal values.

  Both programs take scores and labels of shape [256, 17, 2, 2048] (batch, joint, dimension, bin), form per row the
  Kullback–Leibler sum  Σ_k exp (lsm t k) · (lsm t k − lsm o k)  of the two log-softmaxed rows, average it over the bins
  and the batch, sum over the two dimensions and take the minimum over the 17 joints.
  The reference divides every row sum by 2048, sums the 256 quotients and divides by 256. The kernel sums the row sums in
  16 chunks of 16 batch rows (one grid point each), and the host sums the 16 chunk sums and divides once by 524288.
  At the ideal values a division by a positive real is a product with its inverse, which distributes over every finite sum
  of extended reals, so the two [17, 2] arrays are equal entry by entry for ALL inputs (`Cert.KLSpec.totalOverCount_eq_meanOfMeans`);
  the last two operations are the same on both sides. The precondition is not needed for the values.
  The three frames are the generated frame runs (the reference's is its run with the result dropped); the ideal pass rewrote
  nothing, so the kernel's idealization is its own text read at the ideal values.
-/
import proofs.«179245_j88776974008376_1_alg».proof.Defs
import proofs.«179245_j88776974008376_1_alg».proof.Proof.Gen.Kernel
import proofs.«179245_j88776974008376_1_alg».proof.Proof.Gen.Kernel.Frame
import proofs.«179245_j88776974008376_1_alg».proof.Proof.Gen.KernelIdeal
import proofs.«179245_j88776974008376_1_alg».proof.Proof.Gen.KernelIdeal.Frame
import proofs.«179245_j88776974008376_1_alg».proof.Proof.Gen.ReferenceIdeal
import proofs.«179245_j88776974008376_1_alg».proof.Proof.Gen.Pre_finite_inputs
import proofs.«179245_j88776974008376_1_alg».proof.Proof.ReferenceReadPatched
import proofs.«179245_j88776974008376_1_alg».proof.Proof.ReferenceValue
import proofs.«179245_j88776974008376_1_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result is the kernel program's last two operations applied to the kernel's [17, 2] array: entry by
    entry the mean over the batch of the means over the bins is the total over 2048 · 256. -/
theorem result_eq (o t : Cert.KLSpec.Arr4) :
    Cert.ReferenceIdeal.Read.val_main_v12 (F := Ideal) o t
      = Cert.KernelIdeal.KernelValue.lossOf (Cert.KernelIdeal.KernelValue.perJointDim (Cert.KernelIdeal.ArrayValue.G o t)) := by
  have h10 : Cert.ReferenceIdeal.Read.val_main_v10 (F := Ideal) o t
      = Cert.KernelIdeal.KernelValue.perJointDim (Cert.KernelIdeal.ArrayValue.G o t) := by
    funext i
    obtain ⟨j, d, rfl⟩ : ∃ (j : Fin 17) (d : Fin 2), i = ix2 j d := ⟨i 0, i 1, eq_ix2 i⟩
    rw [Cert.ReferenceIdeal.RefValue.entry, Cert.KernelIdeal.KernelValue.perJointDim_apply,
      Cert.KLSpec.totalOverCount_eq_meanOfMeans]
  unfold Cert.ReferenceIdeal.Read.val_main_v12 Cert.ReferenceIdeal.Read.val_main_v11
  rw [h10]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the loss of the chunk sums of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  exact result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
